-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8x1024x32 : Shape := ⟨4, ![128, 8, 1024, 32]⟩
abbrev S128x8x32x32 : Shape := ⟨4, ![128, 8, 32, 32]⟩
abbrev S_ : Shape := ⟨0, ![]⟩

class Facts : Prop where
  bcast_S_S128x8x1024x32 : S_.BroadcastsInDim S128x8x1024x32 (![] : Fin 0 → Fin S128x8x1024x32.rank)
  reducesTo_S128x8x1024x32_S_d0_1_2_3 : S128x8x1024x32.ReducesTo [0, 1, 2, 3] S_
  h_S_ : 0 < S_.numel
  bcast_S_S128x8x32x32 : S_.BroadcastsInDim S128x8x32x32 (![] : Fin 0 → Fin S128x8x32x32.rank)
  reducesTo_S128x8x32x32_S_d0_1_2_3 : S128x8x32x32.ReducesTo [0, 1, 2, 3] S_

variable [Facts]

def fn {F : FTy → Type} [FloatOps F] (main_arg0 : FVec F S128x8x1024x32 .f32) (main_arg1 : FVec F S128x8x32x32 .f32) : IVec S_ 1 :=
  let main_v0 : FVec F S128x8x1024x32 .f32 := Host.absf main_arg0
  let main_cst : FVec F S_ .f32 := constant S_ .f32 0x7F800000#32
  let main_v1 : FVec F S128x8x1024x32 .f32 := broadcastInDim S128x8x1024x32 ![] bcast_S_S128x8x1024x32 main_cst
  let main_v2 : IVec S128x8x1024x32 1 := cmpf .olt main_v0 main_v1
  let main_c : IVec S_ 1 := constantI S_ 1 1#1
  let main_v3 : IVec S_ 1 := (fun x v => Host.reduce IntOp.andi x v reducesTo_S128x8x1024x32_S_d0_1_2_3 h_S_) main_v2 main_c
  let main_v4 : FVec F S128x8x32x32 .f32 := Host.absf main_arg1
  let main_cst_0 : FVec F S_ .f32 := constant S_ .f32 0x7F800000#32
  let main_v5 : FVec F S128x8x32x32 .f32 := broadcastInDim S128x8x32x32 ![] bcast_S_S128x8x32x32 main_cst_0
  let main_v6 : IVec S128x8x32x32 1 := cmpf .olt main_v4 main_v5
  let main_c_1 : IVec S_ 1 := constantI S_ 1 1#1
  let main_v7 : IVec S_ 1 := (fun x v => Host.reduce IntOp.andi x v reducesTo_S128x8x32x32_S_d0_1_2_3 h_S_) main_v6 main_c_1
  let main_v8 : IVec S_ 1 := andi main_v3 main_v7
  main_v8
-- ==== Kernel.lean ====
abbrev S128x8x1024x32 : Shape := ⟨4, ![128, 8, 1024, 32]⟩
abbrev S128x8x32x32 : Shape := ⟨4, ![128, 8, 32, 32]⟩
abbrev S2x8x1024x32 : Shape := ⟨4, ![2, 8, 1024, 32]⟩
abbrev S2x8x32x32 : Shape := ⟨4, ![2, 8, 32, 32]⟩
abbrev S2x8x32 : Shape := ⟨3, ![2, 8, 32]⟩
abbrev S2x8x1x32 : Shape := ⟨4, ![2, 8, 1, 32]⟩
abbrev S2x8x1024 : Shape := ⟨3, ![2, 8, 1024]⟩
abbrev S2x8x1024x1 : Shape := ⟨4, ![2, 8, 1024, 1]⟩
abbrev S16x1024x32 : Shape := ⟨3, ![16, 1024, 32]⟩
abbrev S16x32x32 : Shape := ⟨3, ![16, 32, 32]⟩

abbrev nBuf : Space → Nat
  | .hbm => 3
  | .vmem => 6
  | .smem => 0
  | _ => 0

abbrev bufTy : (tb : Table) → Fin (tcTables nBuf tb) → BufTy
  | .hbm, ⟨0, _⟩ => ⟨S128x8x1024x32, .f32⟩
  | .hbm, ⟨1, _⟩ => ⟨S128x8x32x32, .f32⟩
  | .hbm, ⟨2, _⟩ => ⟨S128x8x1024x32, .f32⟩
  | .local _ .vmem, ⟨0, _⟩ => ⟨S2x8x1024x32, .f32⟩
  | .local _ .vmem, ⟨1, _⟩ => ⟨S2x8x1024x32, .f32⟩
  | .local _ .vmem, ⟨2, _⟩ => ⟨S2x8x32x32, .f32⟩
  | .local _ .vmem, ⟨3, _⟩ => ⟨S2x8x32x32, .f32⟩
  | .local _ .vmem, ⟨4, _⟩ => ⟨S2x8x1024x32, .f32⟩
  | .local _ .vmem, ⟨5, _⟩ => ⟨S2x8x1024x32, .f32⟩
  | _, _ => ⟨S128x8x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x8x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x8x1024x32_S2x8x1024x32_0_0_0_0 : ∀ a, (![0, 0, 0, 0] : Fin 4 → Nat) a + S2x8x1024x32.size a ≤ S2x8x1024x32.size a
  h_S2x8x1024x32 : 0 < S2x8x1024x32.numel
  inb_S2x8x32x32_S2x8x32x32_0_0_0_0 : ∀ a, (![0, 0, 0, 0] : Fin 4 → Nat) a + S2x8x32x32.size a ≤ S2x8x32x32.size a
  h_S2x8x32x32 : 0 < S2x8x32x32.numel
  reduces_S2x8x32x32_S2x8x32 : S2x8x32x32.Reduces [2] S2x8x32
  shapeCasts_S2x8x32_S2x8x1x32 : S2x8x32.ShapeCasts S2x8x1x32
  broadcasts_S2x8x1x32_S2x8x32x32 : S2x8x1x32.Broadcasts S2x8x32x32
  reduces_S2x8x1024x32_S2x8x1024 : S2x8x1024x32.Reduces [3] S2x8x1024
  shapeCasts_S2x8x1024_S2x8x1024x1 : S2x8x1024.ShapeCasts S2x8x1024x1
  broadcasts_S2x8x1024x1_S2x8x1024x32 : S2x8x1024x1.Broadcasts S2x8x1024x32
  bitsLt_bf16_f32 : FTy.bits .bf16 < FTy.bits .f32
  shapeCasts_S2x8x1024x32_S16x1024x32 : S2x8x1024x32.ShapeCasts S16x1024x32
  shapeCasts_S2x8x32x32_S16x32x32 : S2x8x32x32.ShapeCasts S16x32x32
  shapeCasts_S16x1024x32_S2x8x1024x32 : S16x1024x32.ShapeCasts S2x8x1024x32
  broadcasts_S2x8x1x32_S2x8x1024x32 : S2x8x1x32.Broadcasts S2x8x1024x32
  dot_S16x1024x32_S16x32x32_S16x1024x32_2_1_1_2_0_0_wf : DotDims.WF S16x1024x32 S16x32x32 S16x1024x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x1024x32.size a ≤ S128x8x1024x32.size a
  hwx0_0 : ∀ i : grid0.Coords, EltTy.bits .f32 = 32 ∨ (Rect.block (s := S128x8x1024x32) S2x8x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8x32x32.size a ≤ S128x8x32x32.size a
  hwx0_1 : ∀ i : grid0.Coords, EltTy.bits .f32 = 32 ∨ (Rect.block (s := S128x8x32x32) S2x8x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x1024x32.size a ≤ S128x8x1024x32.size a
  hwx0_2 : ∀ i : grid0.Coords, EltTy.bits .f32 = 32 ∨ (Rect.block (s := S128x8x1024x32) S2x8x1024x32.size (cc0_transform_2 i) (hinb0_2 i)).WholeWords (EltTy.packing .f32)

variable [Facts₀]

def dot_S16x1024x32_S16x32x32_S16x1024x32_2_1_1_2_0_0 : DotDims S16x1024x32 S16x32x32 S16x1024x32 where
  lhsContracting := [2]
  rhsContracting := [1]
  lhsNonContracting := [1]
  rhsNonContracting := [2]
  lhsBatch := [0]
  rhsBatch := [0]
  wf := dot_S16x1024x32_S16x32x32_S16x1024x32_2_1_1_2_0_0_wf

abbrev win0_0 : Pipeline.Window sig grid0 :=
  Pipeline.Window.ofSpec (Memref.whole main_arg0) S2x8x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x8x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x8x1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8x1024x32 : Shape := ⟨4, ![128, 8, 1024, 32]⟩
abbrev S128x8x32x32 : Shape := ⟨4, ![128, 8, 32, 32]⟩
abbrev S_ : Shape := ⟨0, ![]⟩
abbrev S128x8x32 : Shape := ⟨3, ![128, 8, 32]⟩
abbrev S128x8x1x32 : Shape := ⟨4, ![128, 8, 1, 32]⟩
abbrev S128x8x1024 : Shape := ⟨3, ![128, 8, 1024]⟩
abbrev S128x8x1024x1 : Shape := ⟨4, ![128, 8, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S128x8x1024x32, .f32⟩
  | .hbm, ⟨1, _⟩ => ⟨S128x8x32x32, .f32⟩
  | .hbm, ⟨2, _⟩ => ⟨S128x8x32x32, .f32⟩
  | .hbm, ⟨3, _⟩ => ⟨S_, .f32⟩
  | .hbm, ⟨4, _⟩ => ⟨S128x8x32, .f32⟩
  | .hbm, ⟨5, _⟩ => ⟨S_, .f32⟩
  | .hbm, ⟨6, _⟩ => ⟨S128x8x32, .f32⟩
  | .hbm, ⟨7, _⟩ => ⟨S128x8x32, .f32⟩
  | .hbm, ⟨8, _⟩ => ⟨S128x8x1x32, .f32⟩
  | .hbm, ⟨9, _⟩ => ⟨S128x8x32x32, .f32⟩
  | .hbm, ⟨10, _⟩ => ⟨S128x8x32x32, .f32⟩
  | .hbm, ⟨11, _⟩ => ⟨S128x8x32x32, .f32⟩
  | .hbm, ⟨12, _⟩ => ⟨S_, .f32⟩
  | .hbm, ⟨13, _⟩ => ⟨S128x8x32, .f32⟩
  | .hbm, ⟨14, _⟩ => ⟨S128x8x1x32, .f32⟩
  | .hbm, ⟨15, _⟩ => ⟨S128x8x1x32, .f32⟩
  | .hbm, ⟨16, _⟩ => ⟨S128x8x32x32, .f32⟩
  | .hbm, ⟨17, _⟩ => ⟨S128x8x32x32, .f32⟩
  | .hbm, ⟨18, _⟩ => ⟨S_, .f32⟩
  | .hbm, ⟨19, _⟩ => ⟨S128x8x1024, .f32⟩
  | .hbm, ⟨20, _⟩ => ⟨S128x8x1024x1, .f32⟩
  | .hbm, ⟨21, _⟩ => ⟨S_, .f32⟩
  | .hbm, ⟨22, _⟩ => ⟨S128x8x32, .f32⟩
  | .hbm, ⟨23, _⟩ => ⟨S128x8x1x32, .f32⟩
  | .hbm, ⟨24, _⟩ => ⟨S128x8x1024x32, .f32⟩
  | .hbm, ⟨25, _⟩ => ⟨S128x8x1024x32, .f32⟩
  | .hbm, ⟨26, _⟩ => ⟨S128x8x1024x32, .f32⟩
  | .hbm, ⟨27, _⟩ => ⟨S128x8x32x32, .f32⟩
  | .hbm, ⟨28, _⟩ => ⟨S128x8x32x32, .f32⟩
  | .hbm, ⟨29, _⟩ => ⟨S128x8x32x32, .f32⟩
  | .hbm, ⟨30, _⟩ => ⟨S128x8x1024x32, .f32⟩
  | .hbm, ⟨31, _⟩ => ⟨S128x8x1024x32, .f32⟩
  | .hbm, ⟨32, _⟩ => ⟨S128x8x1024x32, .f32⟩
  | .hbm, ⟨33, _⟩ => ⟨S128x8x1024x32, .f32⟩
  | .hbm, ⟨34, _⟩ => ⟨S128x8x1024x32, .f32⟩
  | .hbm, ⟨35, _⟩ => ⟨S128x8x1024x32, .f32⟩
  | _, _ => ⟨S128x8x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]

class Facts₀ : Prop where
  reducesTo_S128x8x32x32_S128x8x32_d2 : S128x8x32x32.ReducesTo [2] S128x8x32
  h_S_ : 0 < S_.numel
  bcast_S_S128x8x32 : S_.BroadcastsInDim S128x8x32 (![] : Fin 0 → Fin S128x8x32.rank)
  bcast_S128x8x32_S128x8x1x32_0_1_3 : S128x8x32.BroadcastsInDim S128x8x1x32 (![0, 1, 3] : Fin 3 → Fin S128x8x1x32.rank)
  bcast_S128x8x1x32_S128x8x32x32_0_1_2_3 : S128x8x1x32.BroadcastsInDim S128x8x32x32 (![0, 1, 2, 3] : Fin 4 → Fin S128x8x32x32.rank)
  reducesTo_S128x8x1024x32_S128x8x1024_d3 : S128x8x1024x32.ReducesTo [3] S128x8x1024
  bcast_S128x8x1024_S128x8x1024x1_0_1_2 : S128x8x1024.BroadcastsInDim S128x8x1024x1 (![0, 1, 2] : Fin 3 → Fin S128x8x1024x1.rank)
  bcast_S128x8x1024x1_S128x8x1024x32_0_1_2_3 : S128x8x1024x1.BroadcastsInDim S128x8x1024x32 (![0, 1, 2, 3] : Fin 4 → Fin S128x8x1024x32.rank)
  bcast_S128x8x1x32_S128x8x1024x32_0_1_2_3 : S128x8x1x32.BroadcastsInDim S128x8x1024x32 (![0, 1, 2, 3] : Fin 4 → Fin S128x8x1024x32.rank)
  dot_S128x8x1024x32_S128x8x32x32_S128x8x1024x32_3_2_2_3_01_01_wf : DotDims.WF S128x8x1024x32 S128x8x32x32 S128x8x1024x32 [3] [2] [2] [3] [0, 1] [0, 1]

variable [Facts₀]

def dot_S128x8x1024x32_S128x8x32x32_S128x8x1024x32_3_2_2_3_01_01 : DotDims S128x8x1024x32 S128x8x32x32 S128x8x1024x32 where
  lhsContracting := [3]
  rhsContracting := [2]
  lhsNonContracting := [2]
  rhsNonContracting := [3]
  lhsBatch := [0, 1]
  rhsBatch := [0, 1]
  wf := dot_S128x8x1024x32_S128x8x32x32_S128x8x1024x32_3_2_2_3_01_01_wf

class Facts : Prop extends Facts₀ where

variable [Facts]
-- ==== Proof.Spec.lean ====
/-
  The function both programs compute, one output entry at a time, over the extended reals.

  For one scope and decomposition the weights `w` form a 32 × 32 matrix and the inputs `x` a 1024 × 32 matrix. A column
  `j` of weights is first normalised in the log domain: with `ℓ k = log (w k)`, `μ = max_k ℓ k` and
  `σ = ∑_k exp (ℓ k − μ)`, the log-weights are `λ k = (ℓ k − μ) − log σ`. The output entry for a row `ξ` of inputs and that
  column is the stabilised log-sum-exp of `ξ k + λ k`:
  `log (∑_k exp (ξ k − max ξ) · exp (λ k − max λ)) + max ξ + max λ`.
  Every maximum starts from the word that denotes `−∞`, as both programs' reductions do.
-/
import Idealize.ShloMosaic.PureOps.Ideal
import Idealize.ShloMosaic.Lib.ValueIdx

open scoped BigOperators

noncomputable section

namespace Cert.LogSumWeights

open Idealize.ShloMosaic Idealize.ShloMosaic.ValueIdx

/-- The maximum of 32 extended reals, folded from the f32 word for `−∞`. -/
def vmax (f : Fin 32 → EReal) : EReal :=
  (Finset.univ : Finset (Fin 32)).fold max (Ideal.ofBits .f32 0xFF800000#32) f

/-- The logarithms of a column of weights, shifted by their maximum. -/
def shifted (w : Fin 32 → EReal) : Fin 32 → EReal := fun k =>
  Ideal.log (w k) - vmax fun t => Ideal.log (w t)

/-- The normalised log-weights of a column: the shifted logarithms minus the logarithm of the sum of their
    exponentials. -/
def logWeights (w : Fin 32 → EReal) : Fin 32 → EReal := fun k =>
  shifted w k - Ideal.log (∑ t : Fin 32, Ideal.exp (shifted w t))

/-- One output entry: the stabilised log-sum-exp of a row `ξ` of inputs against the log-weights of a column `w`. -/
def cell (ξ w : Fin 32 → EReal) : EReal :=
  Ideal.log (∑ k : Fin 32, Ideal.exp (ξ k - vmax ξ) * Ideal.exp (logWeights w k - vmax (logWeights w)))
    + vmax ξ + vmax (logWeights w)

/-- The whole result: entry `(s, d, b, j)` pairs row `(s, d, b, ·)` of the inputs with column `(s, d, ·, j)` of the
    weights. -/
def result (x : (⟨4, ![128, 8, 1024, 32]⟩ : Shape).Idx → EReal) (w : (⟨4, ![128, 8, 32, 32]⟩ : Shape).Idx → EReal) :
    (⟨4, ![128, 8, 1024, 32]⟩ : Shape).Idx → EReal :=
  fun i => cell (fun k => x (ix4 (i 0) (i 1) (i 2) k)) (fun k => w (ix4 (i 0) (i 1) k (i 3)))

end Cert.LogSumWeights

end
-- ==== Proof.LibKeepdims4.lean ====
/-
  Layout and reduction facts for rank-4 arrays whose payload is read at one index, over the extended reals.
  A "keep the reduced axis" computation on an array `[a, b, ·, ·]` with two leading batch axes reduces one of the two
  trailing axes, views the rank-3 result as a rank-4 array with a unit axis in the reduced place, and spreads it back
  over that axis; a batched matrix product folds the two batch axes into one and unfolds them afterwards. Each of these
  re-layings, read at an index built from coordinates, is the operand at the evident coordinates; a maximum over one of
  the trailing axes is the fold of `max` over that axis's coordinates, and a sum over it is the sum over them.
-/
import Idealize.ShloMosaic.Lib.ValueLayout
import Idealize.ShloMosaic.PureOps.Ideal.Laws

namespace Cert.LibKeepdims4

open Idealize.ShloMosaic Idealize.ShloMosaic.ValueIdx

variable {α : Type}

/-! ## Unit axes put in and spread out -/

/-- An `[a, b, c]` array cast to `[a, b, 1, c]` reads, at `(p, q, u, r)`, the operand at `(p, q, r)`. -/
theorem shapeCast_abc_ab1c_apply {a b c : ℕ} (x : (⟨3, ![a, b, c]⟩ : Shape).Idx → α)
    (h : (⟨3, ![a, b, c]⟩ : Shape).ShapeCasts ⟨4, ![a, b, 1, c]⟩) (p : Fin a) (q : Fin b) (u : Fin 1) (r : Fin c) :
    shapeCast ⟨4, ![a, b, 1, c]⟩ x h (ix4 p q u r) = x (ix3 p q r) :=
  shapeCast_apply x h _ _ (by
    have hu : u.val = 0 := by omega
    rw [Shape.rowMajor_val_four, Shape.rowMajor_val_three]
    show (p.val * b + q.val) * c + r.val = ((p.val * b + q.val) * 1 + u.val) * c + r.val
    rw [hu, Nat.mul_one, Nat.add_zero])

/-- An `[a, b, c]` array cast to `[a, b, c, 1]` reads, at `(p, q, r, u)`, the operand at `(p, q, r)`. -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_four, Shape.rowMajor_val_three]
    show (p.val * b + q.val) * c + r.val = ((p.val * b + q.val) * c + r.val) * 1 + u.val
    rw [hu, Nat.mul_one, Nat.add_zero])

/-- An `[a, b, 1, c]` array broadcast to `[a, b, n, c]` reads, at `(p, q, k, r)`, the operand at `(p, q, 0, r)`. -/
theorem broadcastTo_ab1c_abnc_apply {a b n c : ℕ} (v : (⟨4, ![a, b, 1, c]⟩ : Shape).Idx → α)
    (h : (⟨4, ![a, b, 1, c]⟩ : Shape).Broadcasts ⟨4, ![a, b, n, c]⟩) (p : Fin a) (q : Fin b) (k : Fin n) (r : Fin c) :
    broadcastTo ⟨4, ![a, b, n, c]⟩ v h (ix4 p q k r) = v (ix4 p q (0 : Fin 1) r) := by
  refine broadcastTo_apply v h (ix4 p q k r) (ix4 p q (0 : Fin 1) r) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ =>
    show r.val = if c = 1 then 0 else r.val
    split
    · have := r.isLt; omega
    · rfl

/-- An `[a, b, c, 1]` array broadcast to `[a, b, c, n]` reads, at `(p, q, r, k)`, the operand at `(p, q, r, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (p : Fin a) (q : Fin b) (r : Fin c) (k : Fin n) :
    broadcastTo ⟨4, ![a, b, c, n]⟩ v h (ix4 p q r k) = v (ix4 p q r (0 : Fin 1)) := by
  refine broadcastTo_apply v h (ix4 p q r k) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-! ## Two batch axes folded into one, and unfolded -/

/-- An `[a, b, c, d]` array cast to `[n, c, d]` (`n = a · b`) reads, at `(g, r, s)` with `g = p · b + q`, the operand at
    `(p, q, r, s)`. -/
theorem shapeCast_fold_apply {a b n c d : ℕ} (x : (⟨4, ![a, b, c, d]⟩ : Shape).Idx → α)
    (h : (⟨4, ![a, b, c, d]⟩ : Shape).ShapeCasts ⟨3, ![n, c, d]⟩) (p : Fin a) (q : Fin b) (g : Fin n)
    (hg : g.val = p.val * b + q.val) (r : Fin c) (s : Fin d) :
    shapeCast ⟨3, ![n, c, d]⟩ x h (ix3 g r s) = x (ix4 p q r s) :=
  shapeCast_apply x h _ _ (by
    rw [Shape.rowMajor_val_four, Shape.rowMajor_val_three]
    show ((p.val * b + q.val) * c + r.val) * d + s.val = (g.val * c + r.val) * d + s.val
    rw [hg])

/-- An `[n, c, d]` array cast to `[a, b, c, d]` (`n = a · b`) reads, at `(p, q, r, s)`, the operand at `(g, r, s)` with
    `g = p · b + q`. -/
theorem shapeCast_unfold_apply {a b n c d : ℕ} (x : (⟨3, ![n, c, d]⟩ : Shape).Idx → α)
    (h : (⟨3, ![n, c, d]⟩ : Shape).ShapeCasts ⟨4, ![a, b, c, d]⟩) (p : Fin a) (q : Fin b) (g : Fin n)
    (hg : g.val = p.val * b + q.val) (r : Fin c) (s : Fin d) :
    shapeCast ⟨4, ![a, b, c, d]⟩ x h (ix4 p q r s) = x (ix3 g r s) :=
  shapeCast_apply x h _ _ (by
    rw [Shape.rowMajor_val_four, Shape.rowMajor_val_three]
    show (g.val * c + r.val) * d + s.val = ((p.val * b + q.val) * c + r.val) * d + s.val
    rw [hg])

/-! ## Reductions over one trailing axis -/

/-- The f32 word `0xFF800000` is `-∞`, the least extended real. -/
theorem negInf_f32 : Ideal.ofBits .f32 0xFF800000#32 = (⊥ : EReal) := by simp [Ideal.ofBits, Ideal.ieee]

/-- The maximum over the third axis: the `maximumf` reduction of an `[a, b, k, c]` array over axis 2 reads, at
    `(p, q, r)`, the fold of `max` from the accumulator's value over the entries `(p, q, ·, r)`. -/
theorem max_axis2_apply {a b k c : ℕ} {φ : FTy} (src : FVec Ideal ⟨4, ![a, b, k, c]⟩ φ) (acc : BitVec φ.bits)
    (h : (⟨4, ![a, b, k, c]⟩ : Shape).Reduces [2] ⟨3, ![a, b, c]⟩) (hφ : FKind.Formats φ)
    (hacc : acc = FKind.maximumf.neutral φ hφ) (p : Fin a) (q : Fin b) (r : Fin c) :
    multiReduction .maximumf [2] ⟨3, ![a, b, c]⟩ src acc h hφ hacc (ix3 p q r)
      = (Finset.univ : Finset (Fin k)).fold max (Ideal.ofBits φ acc) (fun t => src (ix4 p q t r)) := by
  refine (Ideal.multiReduction_maximumf_single src acc h hφ hacc (ix3 p q r)).trans ?_
  show (Finset.univ : Finset (Fin k)).fold max (Ideal.ofBits φ acc) (src ∘ h.lift (ix3 p q r)) = _
  congr 1
  funext t
  show src (h.lift (ix3 p q r) t) = src (ix4 p q t r)
  congr 1
  funext d; apply Fin.ext
  match d with
  | ⟨0, _⟩ => rfl
  | ⟨1, _⟩ => rfl
  | ⟨2, _⟩ => rfl
  | ⟨3, _⟩ => rfl

/-- The maximum over the last axis: the `maximumf` reduction of an `[a, b, c, k]` array over axis 3 reads, at
    `(p, q, r)`, the fold of `max` from the accumulator's value over the entries `(p, q, r, ·)`. -/
theorem max_axis3_apply {a b c k : ℕ} {φ : FTy} (src : FVec Ideal ⟨4, ![a, b, c, k]⟩ φ) (acc : BitVec φ.bits)
    (h : (⟨4, ![a, b, c, k]⟩ : Shape).Reduces [3] ⟨3, ![a, b, c]⟩) (hφ : FKind.Formats φ)
    (hacc : acc = FKind.maximumf.neutral φ hφ) (p : Fin a) (q : Fin b) (r : Fin c) :
    multiReduction .maximumf [3] ⟨3, ![a, b, c]⟩ src acc h hφ hacc (ix3 p q r)
      = (Finset.univ : Finset (Fin k)).fold max (Ideal.ofBits φ acc) (fun t => src (ix4 p q r t)) := by
  refine (Ideal.multiReduction_maximumf_single src acc h hφ hacc (ix3 p q r)).trans ?_
  show (Finset.univ : Finset (Fin k)).fold max (Ideal.ofBits φ acc) (src ∘ h.lift (ix3 p q r)) = _
  congr 1
  funext t
  show src (h.lift (ix3 p q r) t) = src (ix4 p q r t)
  congr 1
  funext d; apply Fin.ext
  match d with
  | ⟨0, _⟩ => rfl
  | ⟨1, _⟩ => rfl
  | ⟨2, _⟩ => rfl
  | ⟨3, _⟩ => rfl

/-- The sum over the third axis: the `add` reduction of an `[a, b, k, c]` array over axis 2 reads, at `(p, q, r)`, the
    sum of the entries `(p, q, ·, r)`. -/
theorem sum_axis2_apply {a b k c : ℕ} {φ : FTy} (src : FVec Ideal ⟨4, ![a, b, k, c]⟩ φ) (acc : BitVec φ.bits)
    (h : (⟨4, ![a, b, k, c]⟩ : Shape).Reduces [2] ⟨3, ![a, b, c]⟩) (hφ : FKind.Formats φ)
    (hacc : acc = FKind.add.neutral φ hφ) (p : Fin a) (q : Fin b) (r : Fin c) :
    multiReduction .add [2] ⟨3, ![a, b, c]⟩ src acc h hφ hacc (ix3 p q r) = ∑ t : Fin k, src (ix4 p q t r) := by
  refine (Ideal.multiReduction_add_single src acc h hφ hacc (ix3 p q r)).trans ?_
  show ∑ t : Fin k, src (h.lift (ix3 p q r) t) = _
  refine Finset.sum_congr rfl fun t _ => ?_
  congr 1
  funext d; apply Fin.ext
  match d with
  | ⟨0, _⟩ => rfl
  | ⟨1, _⟩ => rfl
  | ⟨2, _⟩ => rfl
  | ⟨3, _⟩ => rfl

/-! ## The host's reductions over one trailing axis -/

/-- The host's maximum over the third axis: a `reduce` with a maximum body of an `[a, b, k, c]` array over axis 2 reads,
    at `(p, q, r)`, the fold of `max` from the initial value over the entries `(p, q, ·, r)`. -/
theorem host_max_axis2_apply {a b k c : ℕ} {φ : FTy} {u : Shape} (x : FVec Ideal ⟨4, ![a, b, k, c]⟩ φ) (init : FVec Ideal u φ)
    (h' : (⟨4, ![a, b, k, c]⟩ : Shape).ReducesTo [2] ⟨3, ![a, b, c]⟩)
    (h : (⟨4, ![a, b, k, c]⟩ : Shape).Reduces [2] ⟨3, ![a, b, c]⟩) (hu : 0 < u.numel) (p : Fin a) (q : Fin b) (r : Fin c) :
    Host.reduce FloatOps.maximumf x init h' hu (ix3 p q r)
      = (Finset.univ : Finset (Fin k)).fold max (init (Shape.Idx.first hu)) (fun t => x (ix4 p q t r)) := by
  refine (Host.reduce_eq_fold_single FloatOps.maximumf x init h' h hu (ix3 p q r)).trans ?_
  show (Finset.univ : Finset (Fin k)).fold max (init (Shape.Idx.first hu)) (x ∘ h.lift (ix3 p q r)) = _
  congr 1
  funext t
  show x (h.lift (ix3 p q r) t) = x (ix4 p q t r)
  congr 1
  funext d; apply Fin.ext
  match d with
  | ⟨0, _⟩ => rfl
  | ⟨1, _⟩ => rfl
  | ⟨2, _⟩ => rfl
  | ⟨3, _⟩ => rfl

/-- The host's maximum over the last axis: a `reduce` with a maximum body of an `[a, b, c, k]` array over axis 3 reads,
    at `(p, q, r)`, the fold of `max` from the initial value over the entries `(p, q, r, ·)`. -/
theorem host_max_axis3_apply {a b c k : ℕ} {φ : FTy} {u : Shape} (x : FVec Ideal ⟨4, ![a, b, c, k]⟩ φ) (init : FVec Ideal u φ)
    (h' : (⟨4, ![a, b, c, k]⟩ : Shape).ReducesTo [3] ⟨3, ![a, b, c]⟩)
    (h : (⟨4, ![a, b, c, k]⟩ : Shape).Reduces [3] ⟨3, ![a, b, c]⟩) (hu : 0 < u.numel) (p : Fin a) (q : Fin b) (r : Fin c) :
    Host.reduce FloatOps.maximumf x init h' hu (ix3 p q r)
      = (Finset.univ : Finset (Fin k)).fold max (init (Shape.Idx.first hu)) (fun t => x (ix4 p q r t)) := by
  refine (Host.reduce_eq_fold_single FloatOps.maximumf x init h' h hu (ix3 p q r)).trans ?_
  show (Finset.univ : Finset (Fin k)).fold max (init (Shape.Idx.first hu)) (x ∘ h.lift (ix3 p q r)) = _
  congr 1
  funext t
  show x (h.lift (ix3 p q r) t) = x (ix4 p q r t)
  congr 1
  funext d; apply Fin.ext
  match d with
  | ⟨0, _⟩ => rfl
  | ⟨1, _⟩ => rfl
  | ⟨2, _⟩ => rfl
  | ⟨3, _⟩ => rfl

end Cert.LibKeepdims4
-- ==== Proof.LibBatchMatmulIdx.lean ====
/-
  A batched matrix product accumulated into zero, read entry by entry over the extended reals, for any extents: one
  leading batch coordinate shared by both operands and the result, rows by columns within a batch
  (`[g, m, k] · [g, k, n]`): the entry at `(t, a, b)` is `∑ c, A (t, a, c) · B (t, c, b)`. The dimension numbers are
  written out literally, so a program's own record of them unifies with the statement by unfolding.
-/
import Idealize.ShloMosaic.Lib.ValueIdx
import Idealize.ShloMosaic.PureOps.Ideal.Laws

open scoped BigOperators

noncomputable section

namespace Cert.LibBatchMatmulIdx

open Idealize.ShloMosaic Idealize.ShloMosaic.ValueIdx

/-- Within batch `t`, rows by columns: the entry at `(t, a, b)` of a `g`-fold batch of `m × k` by `k × n` products
    accumulated into zero is the sum over the contracted coordinate of the products of the two entries of batch `t`. -/
theorem matmul_brc_apply {g m k n : Nat} {φ₁ φ₂ : FTy}
    (w : DotDims.WF ⟨3, ![g, m, k]⟩ ⟨3, ![g, k, n]⟩ ⟨3, ![g, m, n]⟩ [2] [1] [1] [2] [0] [0])
    (prec : Option ContractPrecision) (A : FVec Ideal ⟨3, ![g, m, k]⟩ φ₁) (B : FVec Ideal ⟨3, ![g, k, n]⟩ φ₂)
    (t : Fin g) (a : Fin m) (b : Fin n) :
    FloatOps.matmul (⟨[2], [1], [1], [2], [0], [0], w⟩ : DotDims ⟨3, ![g, m, k]⟩ ⟨3, ![g, k, n]⟩ ⟨3, ![g, m, n]⟩) prec A B
        (constant (F := Ideal) ⟨3, ![g, m, n]⟩ .f32 0x00000000#32) (ix3 t a b)
      = ∑ c : Fin k, A (ix3 t a c) * B (ix3 t c b) := by
  rw [Ideal.matmul_constant_zero_apply,
    ← Equiv.sum_comp (contrEquiv1 (⟨[2], [1], [1], [2], [0], [0], w⟩ : DotDims ⟨3, ![g, m, k]⟩ ⟨3, ![g, k, n]⟩ ⟨3, ![g, m, n]⟩) k rfl rfl).symm]
  refine Finset.sum_congr rfl fun c _ => ?_
  have hc := contrEquiv1_symm_val
    (⟨[2], [1], [1], [2], [0], [0], w⟩ : DotDims ⟨3, ![g, m, k]⟩ ⟨3, ![g, k, n]⟩ ⟨3, ![g, m, n]⟩) k rfl rfl c
  have hl : (⟨[2], [1], [1], [2], [0], [0], w⟩ : DotDims ⟨3, ![g, m, k]⟩ ⟨3, ![g, k, n]⟩ ⟨3, ![g, m, n]⟩).lhsIdx (ix3 t a b)
      ((contrEquiv1 _ k rfl rfl).symm c) = ix3 t a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [1], [1], [2], [0], [0], w⟩ : DotDims ⟨3, ![g, m, k]⟩ ⟨3, ![g, k, n]⟩ ⟨3, ![g, m, n]⟩).rhsIdx (ix3 t a b)
      ((contrEquiv1 _ k rfl rfl).symm c) = ix3 t c b := by
    funext ax; apply Fin.ext
    match ax with
    | ⟨0, _⟩ => simp [DotDims.rhsIdx]; rfl
    | ⟨1, _⟩ => simp [DotDims.rhsIdx]; exact hc
    | ⟨2, _⟩ => simp [DotDims.rhsIdx]; rfl
  rw [hl, hr]

end Cert.LibBatchMatmulIdx

end
-- ==== Proof.KernelBody.lean ====
/-
  The kernel's body, read one output entry at a time over the extended reals.

  The body works on one block: 2 scopes × 8 decompositions, inputs `[2, 8, 1024, 32]` and weights `[2, 8, 32, 32]`. It
  is cut here into its named stages — the logarithms of the weights, their column maxima, the shifted logarithms, the
  column sums of their exponentials, the normalised log-weights, the row maxima of the inputs, the column maxima of the
  log-weights, the two exponentials, their batched product and the final sum — and each stage is read at an index built
  from coordinates. The entry `(p, d, b, j)` of the block's result is the stabilised log-sum-exp of row `(p, d, b, ·)` of
  the inputs against column `(p, d, ·, j)` of the weights.
-/
import proofs.«180951_j82592221102251_2_alg».proof.Proof.Gen.KernelIdeal.Skeleton
import proofs.«180951_j82592221102251_2_alg».proof.Proof.Spec
import proofs.«180951_j82592221102251_2_alg».proof.Proof.LibKeepdims4
import proofs.«180951_j82592221102251_2_alg».proof.Proof.LibBatchMatmulIdx

open scoped BigOperators

noncomputable section

namespace Cert.KernelIdeal.Body

open Idealize.ShloMosaic Idealize.ShloMosaic.ValueIdx Cert.KernelIdeal Cert.KernelIdeal.Gen Cert.LogSumWeights
  Cert.LibKeepdims4

variable (v0 : Vec Ideal S2x8x1024x32 .f32) (v1 : Vec Ideal S2x8x32x32 .f32)

/-! ## The stages -/

/-- The logarithms of the block's weights. -/
def logW : FVec Ideal S2x8x32x32 .f32 := log v1

/-- Their maxima down each column (over the third coordinate). -/
def colMaxLogW : FVec Ideal S2x8x32 .f32 :=
  multiReduction .maximumf [2] S2x8x32 (logW v1) 0xFF800000#32 reduces_S2x8x32x32_S2x8x32 (.inl rfl) rfl

/-- The logarithms shifted by their column's maximum. -/
def shiftedW : FVec Ideal S2x8x32x32 .f32 :=
  subf (logW v1) (broadcastTo S2x8x32x32 (shapeCast S2x8x1x32 (colMaxLogW v1) shapeCasts_S2x8x32_S2x8x1x32)
    broadcasts_S2x8x1x32_S2x8x32x32)

/-- The column sums of the exponentials of the shifted logarithms. -/
def sumExpW : FVec Ideal S2x8x32 .f32 :=
  multiReduction .add [2] S2x8x32 (exp (shiftedW v1)) 0x00000000#32 reduces_S2x8x32x32_S2x8x32 (.inl rfl) rfl

/-- The normalised log-weights. -/
def logWts : FVec Ideal S2x8x32x32 .f32 :=
  subf (shiftedW v1) (broadcastTo S2x8x32x32 (log (shapeCast S2x8x1x32 (sumExpW v1) shapeCasts_S2x8x32_S2x8x1x32))
    broadcasts_S2x8x1x32_S2x8x32x32)

/-- The maxima of the inputs along each row (over the last coordinate), the reduced axis kept as a unit axis. -/
def rowMaxX : FVec Ideal S2x8x1024x1 .f32 :=
  shapeCast S2x8x1024x1 (multiReduction .maximumf [3] S2x8x1024 v0 0xFF800000#32 reduces_S2x8x1024x32_S2x8x1024 (.inl rfl) rfl)
    shapeCasts_S2x8x1024_S2x8x1024x1

/-- The maxima of the log-weights down each column, the reduced axis kept as a unit axis. -/
def colMaxWts : FVec Ideal S2x8x1x32 .f32 :=
  shapeCast S2x8x1x32 (multiReduction .maximumf [2] S2x8x32 (logWts v1) 0xFF800000#32 reduces_S2x8x32x32_S2x8x32 (.inl rfl) rfl)
    shapeCasts_S2x8x32_S2x8x1x32

/-- The exponentials of the inputs shifted by their row's maximum (a change of float format is the identity here). -/
def expX : FVec Ideal S2x8x1024x32 .bf16 :=
  truncf .bf16 (exp (subf v0 (broadcastTo S2x8x1024x32 (rowMaxX v0) broadcasts_S2x8x1024x1_S2x8x1024x32))) bitsLt_bf16_f32

/-- The exponentials of the log-weights shifted by their column's maximum. -/
def expWts : FVec Ideal S2x8x32x32 .bf16 :=
  truncf .bf16 (exp (subf (logWts v1) (broadcastTo S2x8x32x32 (colMaxWts v1) broadcasts_S2x8x1x32_S2x8x32x32))) bitsLt_bf16_f32

/-- Their product, batch by batch, the two batch axes folded into one of 16. -/
def prod : FVec Ideal S16x1024x32 .f32 :=
  matmul dot_S16x1024x32_S16x32x32_S16x1024x32_2_1_1_2_0_0 none
    (shapeCast S16x1024x32 (expX v0) shapeCasts_S2x8x1024x32_S16x1024x32)
    (shapeCast S16x32x32 (expWts v1) shapeCasts_S2x8x32x32_S16x32x32) (constant S16x1024x32 .f32 0x00000000#32)

/-- The block's result: the logarithm of the product plus the two maxima. -/
def out : FVec Ideal S2x8x1024x32 .f32 :=
  addf (addf (log (shapeCast S2x8x1024x32 (prod v0 v1) shapeCasts_S16x1024x32_S2x8x1024x32))
      (broadcastTo S2x8x1024x32 (rowMaxX v0) broadcasts_S2x8x1024x1_S2x8x1024x32))
    (broadcastTo S2x8x1024x32 (colMaxWts v1) broadcasts_S2x8x1x32_S2x8x1024x32)

/-- The body's stored value is the last stage. -/
theorem pay_eq : k0_pay1 (F := Ideal) v0 v1 = out v0 v1 := rfl

/-! ## Each stage at an index -/

theorem colMaxLogW_apply (p : Fin 2) (d : Fin 8) (j : Fin 32) :
    colMaxLogW v1 (ix3 p d j) = vmax fun t => Ideal.log (v1 (ix4 p d t j)) :=
  max_axis2_apply (logW v1) 0xFF800000#32 reduces_S2x8x32x32_S2x8x32 (.inl rfl) rfl p d j

theorem shiftedW_apply (p : Fin 2) (d : Fin 8) (k : Fin 32) (j : Fin 32) :
    shiftedW v1 (ix4 p d k j) = shifted (fun t => v1 (ix4 p d t j)) k := by
  have e : broadcastTo S2x8x32x32 (shapeCast S2x8x1x32 (colMaxLogW v1) shapeCasts_S2x8x32_S2x8x1x32)
        broadcasts_S2x8x1x32_S2x8x32x32 (ix4 p d k j) = vmax fun t => Ideal.log (v1 (ix4 p d t j)) :=
    (broadcastTo_ab1c_abnc_apply _ _ p d k j).trans
      ((shapeCast_abc_ab1c_apply _ _ p d 0 j).trans (colMaxLogW_apply v1 p d j))
  exact congrArg (fun z => Ideal.log (v1 (ix4 p d k j)) - z) e

theorem sumExpW_apply (p : Fin 2) (d : Fin 8) (j : Fin 32) :
    sumExpW v1 (ix3 p d j) = ∑ t : Fin 32, Ideal.exp (shifted (fun u => v1 (ix4 p d u j)) t) :=
  (sum_axis2_apply (exp (shiftedW v1)) 0x00000000#32 reduces_S2x8x32x32_S2x8x32 (.inl rfl) rfl p d j).trans
    (Finset.sum_congr rfl fun t _ => congrArg Ideal.exp (shiftedW_apply v1 p d t j))

theorem logWts_apply (p : Fin 2) (d : Fin 8) (k : Fin 32) (j : Fin 32) :
    logWts v1 (ix4 p d k j) = logWeights (fun t => v1 (ix4 p d t j)) k := by
  have e : broadcastTo S2x8x32x32 (log (shapeCast S2x8x1x32 (sumExpW v1) shapeCasts_S2x8x32_S2x8x1x32))
        broadcasts_S2x8x1x32_S2x8x32x32 (ix4 p d k j)
      = Ideal.log (∑ t : Fin 32, Ideal.exp (shifted (fun u => v1 (ix4 p d u j)) t)) :=
    (broadcastTo_ab1c_abnc_apply _ _ p d k j).trans
      (congrArg Ideal.log ((shapeCast_abc_ab1c_apply _ _ p d 0 j).trans (sumExpW_apply v1 p d j)))
  have e' := shiftedW_apply v1 p d k j
  show shiftedW v1 (ix4 p d k j) - broadcastTo S2x8x32x32 (log (shapeCast S2x8x1x32 (sumExpW v1) shapeCasts_S2x8x32_S2x8x1x32))
        broadcasts_S2x8x1x32_S2x8x32x32 (ix4 p d k j) = _
  rw [e, e']
  rfl

theorem rowMaxX_apply (p : Fin 2) (d : Fin 8) (b : Fin 1024) (u : Fin 1) :
    rowMaxX v0 (ix4 p d b u) = vmax fun t => v0 (ix4 p d b t) := by
  have e1 : ∀ X : FVec Ideal S2x8x1024 .f32,
      shapeCast S2x8x1024x1 X shapeCasts_S2x8x1024_S2x8x1024x1 (ix4 p d b u) = X (ix3 p d b) := fun X =>
    shapeCast_abc_abc1_apply (a := 2) (b := 8) (c := 1024) X shapeCasts_S2x8x1024_S2x8x1024x1 p d b u
  unfold rowMaxX
  rw [e1]
  have h := max_axis3_apply (a := 2) (b := 8) (c := 1024) (k := 32) (v0 : FVec Ideal S2x8x1024x32 .f32) 0xFF800000#32
    reduces_S2x8x1024x32_S2x8x1024 (.inl rfl) rfl p d b
  exact h

theorem colMaxWts_apply (p : Fin 2) (d : Fin 8) (u : Fin 1) (j : Fin 32) :
    colMaxWts v1 (ix4 p d u j) = vmax (logWeights fun t => v1 (ix4 p d t j)) :=
  (shapeCast_abc_ab1c_apply _ _ p d u j).trans
    ((max_axis2_apply (logWts v1) 0xFF800000#32 reduces_S2x8x32x32_S2x8x32 (.inl rfl) rfl p d j).trans
      (congrArg vmax (funext fun t => logWts_apply v1 p d t j)))

theorem expX_apply (p : Fin 2) (d : Fin 8) (b : Fin 1024) (k : Fin 32) :
    expX v0 (ix4 p d b k) = Ideal.exp (v0 (ix4 p d b k) - vmax fun t => v0 (ix4 p d b t)) :=
  congrArg (fun z => Ideal.exp (v0 (ix4 p d b k) - z))
    ((broadcastTo_abc1_abcn_apply (rowMaxX v0) broadcasts_S2x8x1024x1_S2x8x1024x32 p d b k).trans (rowMaxX_apply v0 p d b 0))

theorem expWts_apply (p : Fin 2) (d : Fin 8) (k : Fin 32) (j : Fin 32) :
    expWts v1 (ix4 p d k j)
      = Ideal.exp (logWeights (fun t => v1 (ix4 p d t j)) k - vmax (logWeights fun t => v1 (ix4 p d t j))) := by
  have e := (broadcastTo_ab1c_abnc_apply (colMaxWts v1) broadcasts_S2x8x1x32_S2x8x32x32 p d k j).trans
    (colMaxWts_apply v1 p d 0 j)
  have e' := logWts_apply v1 p d k j
  show Ideal.exp (logWts v1 (ix4 p d k j)
    - broadcastTo S2x8x32x32 (colMaxWts v1) broadcasts_S2x8x1x32_S2x8x32x32 (ix4 p d k j)) = _
  rw [e, e']

theorem prod_apply (p : Fin 2) (d : Fin 8) (g : Fin 16) (hg : g.val = p.val * 8 + d.val) (b : Fin 1024) (j : Fin 32) :
    prod v0 v1 (ix3 g b j)
      = ∑ k : Fin 32, Ideal.exp (v0 (ix4 p d b k) - vmax fun t => v0 (ix4 p d b t))
          * Ideal.exp (logWeights (fun t => v1 (ix4 p d t j)) k - vmax (logWeights fun t => v1 (ix4 p d t j))) :=
  (LibBatchMatmulIdx.matmul_brc_apply dot_S16x1024x32_S16x32x32_S16x1024x32_2_1_1_2_0_0_wf none
      (shapeCast S16x1024x32 (expX v0) shapeCasts_S2x8x1024x32_S16x1024x32)
      (shapeCast S16x32x32 (expWts v1) shapeCasts_S2x8x32x32_S16x32x32) g b j).trans
    (Finset.sum_congr rfl fun k _ => by
      rw [shapeCast_fold_apply (expX v0) shapeCasts_S2x8x1024x32_S16x1024x32 p d g hg b k,
        shapeCast_fold_apply (expWts v1) shapeCasts_S2x8x32x32_S16x32x32 p d g hg k j, expX_apply, expWts_apply])

/-- The block's result at `(p, d, b, j)` is the specification's entry for row `(p, d, b, ·)` of the input block and
    column `(p, d, ·, j)` of the weight block. -/
theorem out_apply (p : Fin 2) (d : Fin 8) (b : Fin 1024) (j : Fin 32) :
    out v0 v1 (ix4 p d b j) = cell (fun k => v0 (ix4 p d b k)) (fun k => v1 (ix4 p d k j)) := by
  have hg : p.val * 8 + d.val < 16 := by have := p.isLt; have := d.isLt; omega
  have e1 : log (shapeCast S2x8x1024x32 (prod v0 v1) shapeCasts_S16x1024x32_S2x8x1024x32) (ix4 p d b j)
      = Ideal.log (∑ k : Fin 32, Ideal.exp (v0 (ix4 p d b k) - vmax fun t => v0 (ix4 p d b t))
          * Ideal.exp (logWeights (fun t => v1 (ix4 p d t j)) k - vmax (logWeights fun t => v1 (ix4 p d t j)))) :=
    congrArg Ideal.log ((shapeCast_unfold_apply (prod v0 v1) shapeCasts_S16x1024x32_S2x8x1024x32 p d
      ⟨p.val * 8 + d.val, hg⟩ rfl b j).trans (prod_apply v0 v1 p d _ rfl b j))
  have e2 := (broadcastTo_abc1_abcn_apply (rowMaxX v0) broadcasts_S2x8x1024x1_S2x8x1024x32 p d b j).trans
    (rowMaxX_apply v0 p d b 0)
  have e3 := (broadcastTo_ab1c_abnc_apply (colMaxWts v1) broadcasts_S2x8x1x32_S2x8x1024x32 p d b j).trans
    (colMaxWts_apply v1 p d 0 j)
  show log (shapeCast S2x8x1024x32 (prod v0 v1) shapeCasts_S16x1024x32_S2x8x1024x32) (ix4 p d b j)
      + broadcastTo S2x8x1024x32 (rowMaxX v0) broadcasts_S2x8x1024x1_S2x8x1024x32 (ix4 p d b j)
      + broadcastTo S2x8x1024x32 (colMaxWts v1) broadcasts_S2x8x1x32_S2x8x1024x32 (ix4 p d b j) = _
  rw [e1, e2, e3]
  rfl

/-- The same for the body's stored value. -/
theorem pay_apply (p : Fin 2) (d : Fin 8) (b : Fin 1024) (j : Fin 32) :
    k0_pay1 (F := Ideal) v0 v1 (ix4 p d b j) = cell (fun k => v0 (ix4 p d b k)) (fun k => v1 (ix4 p d k j)) :=
  out_apply v0 v1 p d b j

end Cert.KernelIdeal.Body

end
-- ==== Proof.KernelWhole.lean ====
/-
  From the kernel's blocks to its whole result array, over the extended reals.

  The grid has 64 points. Point `t` stages scopes `2t` and `2t + 1` of the inputs and of the weights (all 8
  decompositions, all rows and columns) and writes back the same two scopes of the result. Every window's block index
  is `(t, 0, 0, 0`), so an index `(p, d, b, j)` inside point `t`'s block is the array index `(2t + p, d, b, j)` in all
  three arrays: what point `t` writes back is block `t` of the specification applied to the whole argument arrays.
  The blocks cover the array — scope `s` lies in the block of point `s / 2` — so the array ends as the specification.
-/
import proofs.«180951_j82592221102251_2_alg».proof.Proof.Gen.KernelIdeal.Value
import proofs.«180951_j82592221102251_2_alg».proof.Proof.KernelBody
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.LogSumWeights

variable (m : (ℓ : Loc nD τ sig) → Buf (Elt Ideal) ℓ) (ρ : Dev nD → PrngReg)

theorem zero4 : (![0, 0, 0, 0] : Fin 4 → Nat) = fun _ => 0 := funext fun a => by fin_cases a <;> rfl

/-- The printed index maps, decided over the grid: the two input windows move with the output window along the scopes,
    no window moves along another axis, and the output's scope-block index stays below 64. -/
theorem blockIdx : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (0 : Fin 4) ≤ 63 ∧ win0_2.index t (1 : Fin 4) = 0
    ∧ win0_2.index t (2 : Fin 4) = 0 ∧ win0_2.index t (3 : Fin 4) = 0 :=
  (by decide +kernel : ∀ t : Fin grid0.N, _)

/-- Every pair of scopes is SOME point's block. -/
theorem blockOnto : ∀ q : Fin 64, ∃ t : Fin cfg0.N, win0_2.index t = ![q.val, 0, 0, 0] :=
  (by decide +kernel : ∀ q : Fin 64, ∃ t : Fin grid0.N, win0_2.index t = ![q.val, 0, 0, 0])

/-- What point `t` writes back is block `t` of the specification of the argument arrays as the region finds them. -/
theorem flushed_eq (c : Dev nD) (t : Fin cfg0.N) :
    (dats m 0 c).flushed 2 t
      = ((cfg0.win 2).blk t).view.read (Elt Ideal) (result (V m c main_arg0) (V m c main_arg1)) := by
  show (cfg0.win 2).cut (grid0.coords t) ((dats m 0 c).after 2 t) = _
  rw [after0_2]
  unfold out0_2
  rw [View.canon_unit_zero zero4]
  simp only [View.ld_unit_zero (S := S2x8x1024x32) zero4, View.ld_unit_zero (S := S2x8x32x32) zero4]
  obtain ⟨e00, e01, e02, e03, e10, e11, e12, e13, b0, e21, e22, e23⟩ := blockIdx t
  funext y
  obtain ⟨p, d, b, j, rfl⟩ : ∃ (p : Fin 2) (d : Fin 8) (b : Fin 1024) (j : Fin 32), y = ix4 p d b j :=
    ⟨y 0, y 1, y 2, y 3, eq_ix4 y⟩
  have hs : win0_2.index t (0 : Fin 4) * 2 + p.val < 128 := by have := p.isLt; omega
  have he2 : ((cfg0.win 2).blk t).view.emb (ix4 p d b j)
      = ix4 (⟨win0_2.index t (0 : Fin 4) * 2 + p.val, hs⟩ : Fin 128) d b j := by
    funext a; apply Fin.ext
    match a with
    | ⟨0, _⟩ => show win0_2.index t (0 : Fin 4) * 2 + 1 * p.val = win0_2.index t (0 : Fin 4) * 2 + p.val; omega
    | ⟨1, _⟩ => show win0_2.index t (1 : Fin 4) * 8 + 1 * d.val = d.val; omega
    | ⟨2, _⟩ => show win0_2.index t (2 : Fin 4) * 1024 + 1 * b.val = b.val; omega
    | ⟨3, _⟩ => show win0_2.index t (3 : Fin 4) * 32 + 1 * j.val = j.val; omega
  have he0 : ∀ k : Fin 32, ((cfg0.win 0).blk t).view.emb (ix4 p d b k)
      = ix4 (⟨win0_2.index t (0 : Fin 4) * 2 + p.val, hs⟩ : Fin 128) d b k := fun k => by
    funext a; apply Fin.ext
    match a with
    | ⟨0, _⟩ => show win0_0.index t (0 : Fin 4) * 2 + 1 * p.val = win0_2.index t (0 : Fin 4) * 2 + p.val; omega
    | ⟨1, _⟩ => show win0_0.index t (1 : Fin 4) * 8 + 1 * d.val = d.val; omega
    | ⟨2, _⟩ => show win0_0.index t (2 : Fin 4) * 1024 + 1 * b.val = b.val; omega
    | ⟨3, _⟩ => show win0_0.index t (3 : Fin 4) * 32 + 1 * k.val = k.val; omega
  have he1 : ∀ k : Fin 32, ((cfg0.win 1).blk t).view.emb (ix4 p d k j)
      = ix4 (⟨win0_2.index t (0 : Fin 4) * 2 + p.val, hs⟩ : Fin 128) d k j := fun k => by
    funext a; apply Fin.ext
    match a with
    | ⟨0, _⟩ => show win0_1.index t (0 : Fin 4) * 2 + 1 * p.val = win0_2.index t (0 : Fin 4) * 2 + p.val; omega
    | ⟨1, _⟩ => show win0_1.index t (1 : Fin 4) * 8 + 1 * d.val = d.val; omega
    | ⟨2, _⟩ => show win0_1.index t (2 : Fin 4) * 32 + 1 * k.val = k.val; omega
    | ⟨3, _⟩ => show win0_1.index t (3 : Fin 4) * 32 + 1 * j.val = j.val; omega
  show k0_pay1 (F := Ideal) (iblk m c 0 t) (iblk m c 1 t) (ix4 p d b j)
      = result (V m c main_arg0) (V m c main_arg1) (((cfg0.win 2).blk t).view.emb (ix4 p d b j))
  refine (Body.pay_apply (iblk m c 0 t) (iblk m c 1 t) p d b j).trans ?_
  show cell (fun k => V m c main_arg0 (((cfg0.win 0).blk t).view.emb (ix4 p d b k)))
        (fun k => V m c main_arg1 (((cfg0.win 1).blk t).view.emb (ix4 p d k j)))
      = result (V m c main_arg0) (V m c main_arg1) (((cfg0.win 2).blk t).view.emb (ix4 p d b j))
  rw [he2]
  simp only [he0, he1]
  rfl

/-- An index of the array is in point `t`'s block iff each coordinate is in the block's range on its axis. -/
theorem mem_blk (t : Fin cfg0.N) (i : S128x8x1024x32.Idx) :
    i ∈ ((cfg0.win 2).blk t).view.set ↔ ∀ a : Fin 4, win0_2.index t a * S2x8x1024x32.size a ≤ (i a).val
      ∧ (i a).val < win0_2.index t a * S2x8x1024x32.size a + S2x8x1024x32.size a := by
  show i ∈ ((View.whole main_v0).slice (win0_2.rect t)).set ↔ _
  rw [View.set_slice_whole, Rect.mem_set_unit]
  exact Iff.rfl

/-- The blocks cover the array: scope `s` lies in the block of the point whose scope-block index is `s / 2`. -/
theorem cover (i : S128x8x1024x32.Idx) :
    ∃ t : Fin cfg0.N, (cfg0.win 2).flush t = true ∧ i ∈ ((cfg0.win 2).blk t).view.set := by
  have hi0 : (i 0).val < 128 := (i 0).isLt
  have hi1 : (i 1).val < 8 := (i 1).isLt
  have hi2 : (i 2).val < 1024 := (i 2).isLt
  have hi3 : (i 3).val < 32 := (i 3).isLt
  obtain ⟨t, ht⟩ := blockOnto ⟨(i 0).val / 2, by omega⟩
  have q0 : win0_2.index t (0 : Fin 4) = (i 0).val / 2 := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ =>
    show win0_2.index t (0 : Fin 4) * 2 ≤ (i 0).val ∧ (i 0).val < win0_2.index t (0 : Fin 4) * 2 + 2
    omega
  | ⟨1, _⟩ =>
    show win0_2.index t (1 : Fin 4) * 8 ≤ (i 1).val ∧ (i 1).val < win0_2.index t (1 : Fin 4) * 8 + 8
    omega
  | ⟨2, _⟩ =>
    show win0_2.index t (2 : Fin 4) * 1024 ≤ (i 2).val ∧ (i 2).val < win0_2.index t (2 : Fin 4) * 1024 + 1024
    omega
  | ⟨3, _⟩ =>
    show win0_2.index t (3 : Fin 4) * 32 ≤ (i 3).val ∧ (i 3).val < win0_2.index t (3 : Fin 4) * 32 + 32
    omega

/-- The result array after the run is the specification of the argument arrays. -/
theorem final (c : Dev nD) :
    (dats m 0 c).arrAt 2 cfg0.N
      = result (m ((c : Thread nD τ).loc main_arg0)) (m ((c : Thread nD τ).loc main_arg1)) :=
  (dats m 0 c).arrAt_eq_of_cover 2 (result (V m c main_arg0) (V m c main_arg1)) (fun t _ => flushed_eq m c t) cover

/-- The kernel's run: every weakly fair execution terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceEntry.lean ====
/-
  The reference, read one output entry at a time over the extended reals.

  Each stage of the reference's straight line — the logarithms of the weights, the log-softmax over the third coordinate
  (maxima, shifted logarithms, sums of exponentials, their logarithm subtracted), then the stabilised log-domain product —
  is read at an index built from coordinates, following the stage lemmas of the run. The one step with no
  counterpart in the kernel is the log-softmax's `max (−∞, ·)` on the column maxima, which is the identity. The entry
  `(s, d, b, j)` of the result is the specification's: the stabilised log-sum-exp of row `(s, d, b, ·)` of the inputs against
  column `(s, d, ·, j)` of the weights.
-/
import proofs.«180951_j82592221102251_2_alg».proof.Proof.ReferenceRead
import proofs.«180951_j82592221102251_2_alg».proof.Proof.Spec
import proofs.«180951_j82592221102251_2_alg».proof.Proof.LibKeepdims4

open scoped BigOperators

noncomputable section

namespace Cert.ReferenceIdeal.Entry

open Idealize.ShloMosaic Idealize.ShloMosaic.ValueIdx Cert.ReferenceIdeal Cert.ReferenceIdeal.Gen Cert.ReferenceIdeal.ReadP
  Cert.LogSumWeights Cert.LibKeepdims4

variable (x : (⟨S128x8x1024x32, .f32⟩ : BufTy).Contents (Elt Ideal)) (w : (⟨S128x8x32x32, .f32⟩ : BufTy).Contents (Elt Ideal))

/-! ## The log-softmax of the logarithms of the weights -/

/-- The column maxima of the logarithms, as the reduction leaves them. -/
theorem colMaxRaw_apply (s : Fin 128) (d : Fin 8) (j : Fin 32) :
    val_main_call0_v0 (F := Ideal) w (ix3 s d j) = vmax fun t => Ideal.log (w (ix4 s d t j)) := by
  have hr : S128x8x32x32.Reduces [2] S128x8x32 := by decide
  have h := host_max_axis2_apply (φ := .f32) (val_main_v0 (F := Ideal) w) (val_main_call0_cst (F := Ideal))
    reducesTo_S128x8x32x32_S128x8x32_d2 hr h_S_ s d j
  rw [val_main_call0_cst_apply, Ideal.ofBits_def] at h
  simp only [val_main_v0_apply, Ideal.hostUnary_log_def] at h
  unfold val_main_call0_v0 vmax
  exact h

/-- The larger of `−∞` and a column's maximum is that maximum. -/
theorem colMax_apply (s : Fin 128) (d : Fin 8) (j : Fin 32) :
    val_main_call0_v2 (F := Ideal) w (ix3 s d j) = vmax fun t => Ideal.log (w (ix4 s d t j)) := by
  rw [val_main_call0_v2_apply, val_main_call0_v1_apply, val_main_call0_cst_0_apply, colMaxRaw_apply, Ideal.maximumf_def,
    Ideal.ofBits_def, negInf_f32]
  exact max_eq_right bot_le

theorem shifted_apply (s : Fin 128) (d : Fin 8) (k : Fin 32) (j : Fin 32) :
    val_main_call0_v5 (F := Ideal) w (ix4 s d k j) = shifted (fun t => w (ix4 s d t j)) k := by
  have hi : idx_main_call0_v3 (idx_main_call0_v4 (ix4 s d k j)) = ix3 s d j :=
    funext fun a => by match a with | ⟨0, _⟩ => rfl | ⟨1, _⟩ => rfl | ⟨2, _⟩ => rfl
  rw [val_main_call0_v5_apply, val_main_v0_apply, val_main_call0_v4_apply, val_main_call0_v3_apply, hi, colMax_apply,
    Ideal.subf_def, Ideal.hostUnary_log_def]
  rfl

theorem sumExp_apply (s : Fin 128) (d : Fin 8) (j : Fin 32) :
    val_main_call0_v7 (F := Ideal) w (ix3 s d j) = ∑ t : Fin 32, Ideal.exp (shifted (fun u => w (ix4 s d u j)) t) := by
  rw [val_main_call0_v7_apply, val_main_call0_cst_1_apply, Ideal.ofBits_def, Ideal.ofBits_zero_f32, zero_add]
  refine Finset.sum_congr rfl fun t _ => ?_
  have hi : idx_main_call0_v7 (ix3 s d j) t = ix4 s d t j :=
    funext fun a => by match a with | ⟨0, _⟩ => rfl | ⟨1, _⟩ => rfl | ⟨2, _⟩ => rfl | ⟨3, _⟩ => rfl
  rw [val_main_call0_v6_apply, hi, shifted_apply, Ideal.hostUnary_exp_def]

theorem logWts_apply (s : Fin 128) (d : Fin 8) (k : Fin 32) (j : Fin 32) :
    val_main_v1 (F := Ideal) w (ix4 s d k j) = logWeights (fun t => w (ix4 s d t j)) k := by
  have hi : idx_main_call0_v8 (idx_main_call0_v10 (ix4 s d k j)) = ix3 s d j :=
    funext fun a => by match a with | ⟨0, _⟩ => rfl | ⟨1, _⟩ => rfl | ⟨2, _⟩ => rfl
  rw [val_main_v1_apply, shifted_apply, val_main_call0_v10_apply, val_main_call0_v9_apply, val_main_call0_v8_apply, hi,
    sumExp_apply, Ideal.subf_def, Ideal.hostUnary_log_def]
  rfl

/-! ## The stabilised log-domain product -/

theorem colMaxWts_apply (s : Fin 128) (d : Fin 8) (j : Fin 32) :
    val_main_v4 (F := Ideal) w (ix3 s d j) = vmax (logWeights fun t => w (ix4 s d t j)) := by
  have hr : S128x8x32x32.Reduces [2] S128x8x32 := by decide
  have h := host_max_axis2_apply (φ := .f32) (val_main_v1 (F := Ideal) w) (val_main_cst_0 (F := Ideal))
    reducesTo_S128x8x32x32_S128x8x32_d2 hr h_S_ s d j
  rw [val_main_cst_0_apply, Ideal.ofBits_def] at h
  simp only [logWts_apply] at h
  unfold val_main_v4 vmax
  exact h

theorem rowMaxX_apply (s : Fin 128) (d : Fin 8) (b : Fin 1024) :
    val_main_v2 (F := Ideal) x (ix3 s d b) = vmax fun t => x (ix4 s d b t) := by
  have hr : S128x8x1024x32.Reduces [3] S128x8x1024 := by decide
  have h := host_max_axis3_apply (φ := .f32) x (val_main_cst (F := Ideal)) reducesTo_S128x8x1024x32_S128x8x1024_d3 hr h_S_
    s d b
  rw [val_main_cst_apply, Ideal.ofBits_def] at h
  unfold val_main_v2 vmax
  exact h

theorem expX_apply (s : Fin 128) (d : Fin 8) (b : Fin 1024) (k : Fin 32) :
    val_main_v8 (F := Ideal) x (ix4 s d b k) = Ideal.exp (x (ix4 s d b k) - vmax fun t => x (ix4 s d b t)) := by
  have hi : idx_main_v3 (idx_main_v6 (ix4 s d b k)) = ix3 s d b :=
    funext fun a => by match a with | ⟨0, _⟩ => rfl | ⟨1, _⟩ => rfl | ⟨2, _⟩ => rfl
  rw [val_main_v8_apply, val_main_v7_apply, val_main_v6_apply, val_main_v3_apply, hi, rowMaxX_apply, Ideal.subf_def,
    Ideal.hostUnary_exp_def]

theorem expWts_apply (s : Fin 128) (d : Fin 8) (k : Fin 32) (j : Fin 32) :
    val_main_v11 (F := Ideal) w (ix4 s d k j)
      = Ideal.exp (logWeights (fun t => w (ix4 s d t j)) k - vmax (logWeights fun t => w (ix4 s d t j))) := by
  have hi : idx_main_v5 (idx_main_v9 (ix4 s d k j)) = ix3 s d j :=
    funext fun a => by match a with | ⟨0, _⟩ => rfl | ⟨1, _⟩ => rfl | ⟨2, _⟩ => rfl
  rw [val_main_v11_apply, val_main_v10_apply, logWts_apply, val_main_v9_apply, val_main_v5_apply, hi, colMaxWts_apply,
    Ideal.subf_def, Ideal.hostUnary_exp_def]

theorem prod_apply (s : Fin 128) (d : Fin 8) (b : Fin 1024) (j : Fin 32) :
    val_main_v12 (F := Ideal) x w (ix4 s d b j)
      = ∑ k : Fin 32, Ideal.exp (x (ix4 s d b k) - vmax fun t => x (ix4 s d b t))
          * Ideal.exp (logWeights (fun t => w (ix4 s d t j)) k - vmax (logWeights fun t => w (ix4 s d t j))) := by
  rw [val_main_v12_apply]
  refine Finset.sum_congr rfl fun k _ => ?_
  have hl : lidx_main_v12 (ix4 s d b j) k = ix4 s d b k :=
    funext fun a => by match a with | ⟨0, _⟩ => rfl | ⟨1, _⟩ => rfl | ⟨2, _⟩ => rfl | ⟨3, _⟩ => rfl
  have hr : ridx_main_v12 (ix4 s d b j) k = ix4 s d k j :=
    funext fun a => by match a with | ⟨0, _⟩ => rfl | ⟨1, _⟩ => rfl | ⟨2, _⟩ => rfl | ⟨3, _⟩ => rfl
  rw [hl, hr, expX_apply, expWts_apply]

/-- The reference's result is the specification, entry by entry. -/
theorem result_eq : val_main_v17 (F := Ideal) x w = result x w := by
  funext i
  obtain ⟨s, d, b, j, rfl⟩ : ∃ (s : Fin 128) (d : Fin 8) (b : Fin 1024) (j : Fin 32), i = ix4 s d b j :=
    ⟨i 0, i 1, i 2, i 3, eq_ix4 i⟩
  have h14 : idx_main_v3 (idx_main_v14 (ix4 s d b j)) = ix3 s d b :=
    funext fun a => by match a with | ⟨0, _⟩ => rfl | ⟨1, _⟩ => rfl | ⟨2, _⟩ => rfl
  have h16 : idx_main_v5 (idx_main_v16 (ix4 s d b j)) = ix3 s d j :=
    funext fun a => by match a with | ⟨0, _⟩ => rfl | ⟨1, _⟩ => rfl | ⟨2, _⟩ => rfl
  rw [val_main_v17_apply, val_main_v15_apply, val_main_v13_apply, prod_apply, val_main_v14_apply, val_main_v3_apply, h14,
    rowMaxX_apply, val_main_v16_apply, val_main_v5_apply, h16, colMaxWts_apply, Ideal.hostUnary_log_def]
  simp only [Ideal.addf_def]
  rfl

end Cert.ReferenceIdeal.Entry

end
-- ==== Proof.lean ====
/-
  The certificate: a log-domain sum layer — for each scope and decomposition, the weights are normalised by a
  log-softmax of their logarithms and combined with the inputs by a stabilised log-sum-exp (a product of exponentials
  shifted by row and column maxima, its logarithm, the maxima added back) — computed by a kernel that walks the 128 scopes
  two at a time, against the same computation written as whole-array operations.

  Over the extended reals the two programs are the same function of their arguments, operation by operation: a change of
  float format is the identity, the kernel's batched matrix product into zero and the reference's `dot_general` are the
  same sums of products, and the reference's extra `max (−∞, ·)` is the identity. So the equality needs no law of
  arithmetic and never opens the precondition. The kernel's result array is assembled from its 64 blocks
  (Proof/KernelWhole.lean, over the body read entry by entry in Proof/KernelBody.lean); the reference's result is read
  entry by entry in Proof/ReferenceEntry.lean; both are the specification of Proof/Spec.lean. The three programs'
  frames are their runs with the results dropped, and nothing was rewritten in the idealisation, so `preserves` is
  trivial.
-/
import proofs.«180951_j82592221102251_2_alg».proof.Defs
import proofs.«180951_j82592221102251_2_alg».proof.Proof.Gen.Kernel
import proofs.«180951_j82592221102251_2_alg».proof.Proof.Gen.Kernel.Skeleton
import proofs.«180951_j82592221102251_2_alg».proof.Proof.Gen.Kernel.Launch
import proofs.«180951_j82592221102251_2_alg».proof.Proof.Gen.Kernel.Points
import proofs.«180951_j82592221102251_2_alg».proof.Proof.Gen.Kernel.Frame
import proofs.«180951_j82592221102251_2_alg».proof.Proof.Gen.KernelIdeal
import proofs.«180951_j82592221102251_2_alg».proof.Proof.Gen.KernelIdeal.Skeleton
import proofs.«180951_j82592221102251_2_alg».proof.Proof.Gen.KernelIdeal.Launch
import proofs.«180951_j82592221102251_2_alg».proof.Proof.Gen.KernelIdeal.Points
import proofs.«180951_j82592221102251_2_alg».proof.Proof.Gen.KernelIdeal.Frame
import proofs.«180951_j82592221102251_2_alg».proof.Proof.Gen.ReferenceIdeal
import proofs.«180951_j82592221102251_2_alg».proof.Proof.Gen.KernelIdeal.Value
import proofs.«180951_j82592221102251_2_alg».proof.Proof.ReferenceRun
import proofs.«180951_j82592221102251_2_alg».proof.Proof.ReferenceRead
import proofs.«180951_j82592221102251_2_alg».proof.Proof.KernelWhole
import proofs.«180951_j82592221102251_2_alg».proof.Proof.ReferenceEntry
import proofs.«180951_j82592221102251_2_alg».proof.Proof.Gen.Pre_finite_inputs
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealisation rewrote nothing. -/
theorem preserves : Cert.preserves_Kernel_KernelIdeal := trivial

/-- Over the extended reals the kernel's result array ends at the specification of its arguments, and so does the
    reference's; the arguments agree, so the results are equal. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, Cert.ReferenceIdeal.Entry.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
